-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x1600000 : Shape := ⟨2, ![2, 1600000]⟩
abbrev S100000 : Shape := ⟨1, ![100000]⟩
abbrev S14x128 : Shape := ⟨2, ![14, 128]⟩
abbrev S128 : Shape := ⟨1, ![128]⟩
abbrev S128x128 : Shape := ⟨2, ![128, 128]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S14x128 : S_.BroadcastsInDim S14x128 (![] : Fin 0 → Fin S14x128.rank)
  reducesTo_S14x128_S_d0_1 : S14x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x14 .f32) (main_arg1 : IVec S2x1600000 32) (main_arg2 : IVec S100000 32) (main_arg3 : FVec F S14x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S14x128 .f32 := Host.absf main_arg3
  let main_cst_0 : FVec F S_ .f32 := constant S_ .f32 0x7F800000#32
  let main_v5 : FVec F S14x128 .f32 := broadcastInDim S14x128 ![] bcast_S_S14x128 main_cst_0
  let main_v6 : IVec S14x128 1 := cmpf .olt main_v4 main_v5
  let main_c_1 : IVec S_ 1 := constantI S_ 1 1#1
  let main_v7 : IVec S_ 1 := (fun x v => Host.reduce IntOp.andi x v reducesTo_S14x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x14 : Shape := ⟨2, ![100000, 14]⟩
abbrev S2x1600000 : Shape := ⟨2, ![2, 1600000]⟩
abbrev S100000 : Shape := ⟨1, ![100000]⟩
abbrev S14x128 : Shape := ⟨2, ![14, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x14 : Shape := ⟨2, ![1600000, 14]⟩
abbrev S1x128 : Shape := ⟨2, ![1, 128]⟩
abbrev S100000x128 : Shape := ⟨2, ![100000, 128]⟩
abbrev S4000x14 : Shape := ⟨2, ![4000, 14]⟩
abbrev S4000x128 : Shape := ⟨2, ![4000, 128]⟩
abbrev S1600000x128 : Shape := ⟨2, ![1600000, 128]⟩
abbrev S4096x128 : Shape := ⟨2, ![4096, 128]⟩
abbrev S100000x1 : Shape := ⟨2, ![100000, 1]⟩
abbrev S4096 : Shape := ⟨1, ![4096]⟩
abbrev S4096x1 : Shape := ⟨2, ![4096, 1]⟩

abbrev nBuf : Space → Nat
  | .hbm => 67
  | .vmem => 24
  | .smem => 0
  | _ => 0

abbrev bufTy : (tb : Table) → Fin (tcTables nBuf tb) → BufTy
  | .hbm, ⟨0, _⟩ => ⟨S100000x14, .f32⟩
  | .hbm, ⟨1, _⟩ => ⟨S2x1600000, .i32⟩
  | .hbm, ⟨2, _⟩ => ⟨S100000, .i32⟩
  | .hbm, ⟨3, _⟩ => ⟨S14x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x14, .f32⟩
  | .hbm, ⟨26, _⟩ => ⟨S_, .f32⟩
  | .hbm, ⟨27, _⟩ => ⟨S100000x14, .f32⟩
  | .hbm, ⟨28, _⟩ => ⟨S1600000x1, .i32⟩
  | .hbm, ⟨29, _⟩ => ⟨S100000x14, .f32⟩
  | .hbm, ⟨30, _⟩ => ⟨S1x128, .f32⟩
  | .hbm, ⟨31, _⟩ => ⟨S1x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S_, .f32⟩
  | .hbm, ⟨50, _⟩ => ⟨S4096x128, .f32⟩
  | .hbm, ⟨51, _⟩ => ⟨S100000x1, .i32⟩
  | .hbm, ⟨52, _⟩ => ⟨S4096x128, .f32⟩
  | .hbm, ⟨53, _⟩ => ⟨S_, .f32⟩
  | .hbm, ⟨54, _⟩ => ⟨S100000, .f32⟩
  | .hbm, ⟨55, _⟩ => ⟨S_, .f32⟩
  | .hbm, ⟨56, _⟩ => ⟨S4096, .f32⟩
  | .hbm, ⟨57, _⟩ => ⟨S100000x1, .i32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1, .f32⟩
  | .hbm, ⟨63, _⟩ => ⟨S4096x128, .f32⟩
  | .hbm, ⟨64, _⟩ => ⟨S4096x128, .f32⟩
  | .hbm, ⟨65, _⟩ => ⟨S1x128, .f32⟩
  | .hbm, ⟨66, _⟩ => ⟨S4096x128, .f32⟩
  | .local _ .vmem, ⟨0, _⟩ => ⟨S4000x14, .f32⟩
  | .local _ .vmem, ⟨1, _⟩ => ⟨S4000x14, .f32⟩
  | .local _ .vmem, ⟨2, _⟩ => ⟨S4000x14, .f32⟩
  | .local _ .vmem, ⟨3, _⟩ => ⟨S4000x14, .f32⟩
  | .local _ .vmem, ⟨4, _⟩ => ⟨S14x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4096x128, .f32⟩
  | .local _ .vmem, ⟨21, _⟩ => ⟨S128x128, .f32⟩
  | .local _ .vmem, ⟨22, _⟩ => ⟨S1x128, .f32⟩
  | .local _ .vmem, ⟨23, _⟩ => ⟨S4096x128, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S14x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x14 : S_.BroadcastsInDim S100000x14 (![] : Fin 0 → Fin S100000x14.rank)
  shapeCasts_S128_S1x128 : S128.ShapeCasts S1x128
  inb_S4000x14_S4000x14_0_0 : ∀ a, (![0, 0] : Fin 2 → Nat) a + S4000x14.size a ≤ S4000x14.size a
  h_S4000x14 : 0 < S4000x14.numel
  shapeCasts_S4000x14_S4000x14 : S4000x14.ShapeCasts S4000x14
  bitsLt_bf16_f32 : FTy.bits .bf16 < FTy.bits .f32
  inb_S14x128_S14x128_0_0 : ∀ a, (![0, 0] : Fin 2 → Nat) a + S14x128.size a ≤ S14x128.size a
  h_S14x128 : 0 < S14x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S4000x128_S4000x128 : S4000x128.ShapeCasts S4000x128
  bcast_S_S4096x128 : S_.BroadcastsInDim S4096x128 (![] : Fin 0 → Fin S4096x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  gather_S100000x14_S1600000x1_S1600000x14_1_0_n_n_0_1_114_wf : GatherDims.WF S100000x14 S1600000x1 S1600000x14 [1] [0] [] [0] [] 1 ![1, 14]
  scatter_S100000x14_S1600000x1_S1600000x14_1_0_0_1_wf : ScatterDims.WF S100000x14 S1600000x1 S1600000x14 [1] [0] [0] 1
  dot_S4000x14_S14x128_S4000x128_1_0_0_1_n_n_wf : DotDims.WF S4000x14 S14x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S4096x128_S100000x1_S100000x128_1_0_0_1_wf : ScatterDims.WF S4096x128 S100000x1 S100000x128 [1] [0] [0] 1
  scatter_S4096_S100000x1_S100000_n_0_0_1_wf : ScatterDims.WF S4096 S100000x1 S100000 [] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x14.size a ≤ S100000x14.size a
  hwx0_0 : ∀ i : grid0.Coords, EltTy.bits .f32 = 32 ∨ (Rect.block (s := S100000x14) S4000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x14.size a ≤ S100000x14.size a
  hwx0_1 : ∀ i : grid0.Coords, EltTy.bits .f32 = 32 ∨ (Rect.block (s := S100000x14) S4000x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x128.size a ≤ S14x128.size a
  hwx0_2 : ∀ i : grid0.Coords, EltTy.bits .f32 = 32 ∨ (Rect.block (s := S14x128) S14x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S4096x128.size a
  hwx2_3 : ∀ i : grid2.Coords, EltTy.bits .f32 = 32 ∨ (Rect.block (s := S4096x128) S4096x128.size (cc2_transform_3 i) (hinb2_3 i)).WholeWords (EltTy.packing .f32)

variable [Facts₀]

def gather_S100000x14_S1600000x1_S1600000x14_1_0_n_n_0_1_114 : GatherDims S100000x14 S1600000x1 S1600000x14 where
  offsetDims := [1]
  collapsedSliceDims := [0]
  operandBatchingDims := []
  startIndicesBatchingDims := []
  startIndexMap := [0]
  indexVectorDim := 1
  sliceSizes := ![1, 14]
  wf := gather_S100000x14_S1600000x1_S1600000x14_1_0_n_n_0_1_114_wf
def scatter_S100000x14_S1600000x1_S1600000x14_1_0_0_1 : ScatterDims S100000x14 S1600000x1 S1600000x14 where
  updateWindowDims := [1]
  insertedWindowDims := [0]
  scatterDimsToOperandDims := [0]
  indexVectorDim := 1
  wf := scatter_S100000x14_S1600000x1_S1600000x14_1_0_0_1_wf
def dot_S4000x14_S14x128_S4000x128_1_0_0_1_n_n : DotDims S4000x14 S14x128 S4000x128 where
  lhsContracting := [1]
  rhsContracting := [0]
  lhsNonContracting := [0]
  rhsNonContracting := [1]
  lhsBatch := []
  rhsBatch := []
  wf := dot_S4000x14_S14x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S14x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S4096x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x14 : Shape := ⟨2, ![100000, 14]⟩
abbrev S2x1600000 : Shape := ⟨2, ![2, 1600000]⟩
abbrev S100000 : Shape := ⟨1, ![100000]⟩
abbrev S14x128 : Shape := ⟨2, ![14, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x14 : Shape := ⟨2, ![1600000, 14]⟩
abbrev S100000x128 : Shape := ⟨2, ![100000, 128]⟩
abbrev S1x128 : Shape := ⟨2, ![1, 128]⟩
abbrev S1600000x128 : Shape := ⟨2, ![1600000, 128]⟩
abbrev S4096x128 : Shape := ⟨2, ![4096, 128]⟩
abbrev S100000x1 : Shape := ⟨2, ![100000, 1]⟩
abbrev S4096 : Shape := ⟨1, ![4096]⟩
abbrev S4096x1 : Shape := ⟨2, ![4096, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x14, .f32⟩
  | .hbm, ⟨1, _⟩ => ⟨S2x1600000, .i32⟩
  | .hbm, ⟨2, _⟩ => ⟨S100000, .i32⟩
  | .hbm, ⟨3, _⟩ => ⟨S14x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x14, .f32⟩
  | .hbm, ⟨26, _⟩ => ⟨S_, .f32⟩
  | .hbm, ⟨27, _⟩ => ⟨S100000x14, .f32⟩
  | .hbm, ⟨28, _⟩ => ⟨S1600000x1, .i32⟩
  | .hbm, ⟨29, _⟩ => ⟨S100000x14, .f32⟩
  | .hbm, ⟨30, _⟩ => ⟨S100000x14, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S4096x128, .f32⟩
  | .hbm, ⟨75, _⟩ => ⟨S100000x1, .i32⟩
  | .hbm, ⟨76, _⟩ => ⟨S4096x128, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S4096, .f32⟩
  | .hbm, ⟨81, _⟩ => ⟨S100000x1, .i32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096x1, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S1x128, .f32⟩
  | .hbm, ⟨91, _⟩ => ⟨S4096x128, .f32⟩
  | .hbm, ⟨92, _⟩ => ⟨S4096x128, .f32⟩
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x14 : S_.BroadcastsInDim S100000x14 (![] : Fin 0 → Fin S100000x14.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S4096x128 : S_.BroadcastsInDim S4096x128 (![] : Fin 0 → Fin S4096x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  gather_S100000x14_S1600000x1_S1600000x14_1_0_n_n_0_1_114_wf : GatherDims.WF S100000x14 S1600000x1 S1600000x14 [1] [0] [] [0] [] 1 ![1, 14]
  scatter_S100000x14_S1600000x1_S1600000x14_1_0_0_1_wf : ScatterDims.WF S100000x14 S1600000x1 S1600000x14 [1] [0] [0] 1
  dot_S100000x14_S14x128_S100000x128_1_0_0_1_n_n_wf : DotDims.WF S100000x14 S14x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S4096x128_S100000x1_S100000x128_1_0_0_1_wf : ScatterDims.WF S4096x128 S100000x1 S100000x128 [1] [0] [0] 1
  scatter_S4096_S100000x1_S100000_n_0_0_1_wf : ScatterDims.WF S4096 S100000x1 S100000 [] [0] [0] 1
  dot_S4096x128_S128x128_S4096x128_1_0_0_1_n_n_wf : DotDims.WF S4096x128 S128x128 S4096x128 [1] [0] [0] [1] [] []

variable [Facts₀]

def gather_S100000x14_S1600000x1_S1600000x14_1_0_n_n_0_1_114 : GatherDims S100000x14 S1600000x1 S1600000x14 where
  offsetDims := [1]
  collapsedSliceDims := [0]
  operandBatchingDims := []
  startIndicesBatchingDims := []
  startIndexMap := [0]
  indexVectorDim := 1
  sliceSizes := ![1, 14]
  wf := gather_S100000x14_S1600000x1_S1600000x14_1_0_n_n_0_1_114_wf
def scatter_S100000x14_S1600000x1_S1600000x14_1_0_0_1 : ScatterDims S100000x14 S1600000x1 S1600000x14 where
  updateWindowDims := [1]
  insertedWindowDims := [0]
  scatterDimsToOperandDims := [0]
  indexVectorDim := 1
  wf := scatter_S100000x14_S1600000x1_S1600000x14_1_0_0_1_wf
def dot_S100000x14_S14x128_S100000x128_1_0_0_1_n_n : DotDims S100000x14 S14x128 S100000x128 where
  lhsContracting := [1]
  rhsContracting := [0]
  lhsNonContracting := [0]
  rhsNonContracting := [1]
  lhsBatch := []
  rhsBatch := []
  wf := dot_S100000x14_S14x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.KernelRun.lean ====
/-
  The idealized kernel's run with its result named.

  Every weakly fair execution of the program terminates without a fault, leaves the thirteen argument arrays as they
  were, and leaves in the result array what the last region's write-backs leave there: the contents at the last
  segment boundary of the chain "host operations, region, host operations, region, host operations, region", read at
  the result's buffer. The launch over the six segments gives every unscoped buffer at that boundary's contents; the
  result is one of them, and each argument is walked back through the chain to the launch memory.
-/
import proofs.«101256_j48249662603679_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Whole

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«101256_j48249662603679_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.Pay.lean ====
/-
  What each kernel body stores, read at an entry of its block, on the extended reals.

  A layer's body adds its two input blocks, multiplies by the first weight matrix, adds the first bias row, takes the
  positive part, multiplies by the second weight matrix, adds the second bias row and takes the positive part again;
  the changes of float format on the way into each product are the identity here, a cast of a block to its own shape
  is the identity, and the zero the positive part compares with is the real number zero. So entry `(p, q)` of the
  stored block is the nested sum below, which reads row `p` of the two input blocks only. The read-out's body is one
  product plus a bias row.
-/
import proofs.«101256_j48249662603679_1_alg».proof.Proof.Gen.KernelIdeal.Skeleton
import proofs.«101256_j48249662603679_1_alg».proof.Proof.LibAffineBlock
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.LibAffineBlock

/-- The zero the bodies compare with is the real zero. -/
theorem scalar_zero : (Scalar.ofBits (F := Ideal) .f32 0x00000000#32 : Ideal .f32) = 0 := Ideal.ofBits_zero_f32

/-- The first layer's stored block at `(p, q)`. -/
theorem pay0_apply (x0 x1 : Vec Ideal S4000x14 .f32) (x2 : Vec Ideal S14x128 .f32) (x3 : Vec Ideal S1x128 .f32)
    (x4 : Vec Ideal S128x128 .f32) (x5 : Vec Ideal S1x128 .f32) (p : Fin 4000) (q : Fin 128) :
    k0_pay1 (F := Ideal) x0 x1 x2 x3 x4 x5 (ix2 p q)
      = max ((∑ k : Fin 128, max ((∑ l : Fin 14, (x0 (ix2 p l) + x1 (ix2 p l)) * x2 (ix2 l k)) + x3 (ix2 (0 : Fin 1) k)) 0
          * x4 (ix2 k q)) + x5 (ix2 (0 : Fin 1) q)) 0 := by
  unfold k0_pay1
  rw [maximumf_apply, affine_apply dot_S4000x128_S128x128_S4000x128_1_0_0_1_n_n rfl rfl rfl rfl rfl rfl, broadcast_apply,
    scalar_zero]
  simp only [truncf_apply, maximumf_apply, broadcast_apply, scalar_zero, addf_apply, shapeCast_self,
    Cert.LibMatmulNN.matmul_zero_apply' dot_S4000x14_S14x128_S4000x128_1_0_0_1_n_n rfl rfl rfl rfl rfl rfl,
    broadcastTo_1b_ab_apply]

/-- The second layer's stored block at `(p, q)`. -/
theorem pay1_apply (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    k1_pay1 (F := Ideal) x0 x1 x2 x3 x4 x5 (ix2 p q)
      = max ((∑ k : Fin 128, max ((∑ l : Fin 128, (x0 (ix2 p l) + x1 (ix2 p l)) * x2 (ix2 l k)) + x3 (ix2 (0 : Fin 1) k)) 0
          * x4 (ix2 k q)) + x5 (ix2 (0 : Fin 1) q)) 0 := by
  unfold k1_pay1
  rw [maximumf_apply, affine_apply dot_S4000x128_S128x128_S4000x128_1_0_0_1_n_n rfl rfl rfl rfl rfl rfl, broadcast_apply,
    scalar_zero]
  simp only [truncf_apply, maximumf_apply, broadcast_apply, scalar_zero, addf_apply, shapeCast_self,
    Cert.LibMatmulNN.matmul_zero_apply' dot_S4000x128_S128x128_S4000x128_1_0_0_1_n_n rfl rfl rfl rfl rfl rfl,
    broadcastTo_1b_ab_apply]

/-- The read-out's stored block at `(p, q)`. -/
theorem pay2_apply (x0 : Vec Ideal S4096x128 .f32) (x1 : Vec Ideal S128x128 .f32) (x2 : Vec Ideal S1x128 .f32)
    (p : Fin 4096) (q : Fin 128) :
    k2_pay1 (F := Ideal) x0 x1 x2 (ix2 p q)
      = (∑ k : Fin 128, x0 (ix2 p k) * x1 (ix2 k q)) + x2 (ix2 (0 : Fin 1) q) := by
  unfold k2_pay1
  rw [affine_apply dot_S4096x128_S128x128_S4096x128_1_0_0_1_n_n rfl rfl rfl rfl rfl rfl]
  simp only [truncf_apply, shapeCast_self]

end Cert.KernelIdeal.Pay

end
-- ==== Proof.Spec.lean ====
/-
  What the network computes, as whole-array functions on the extended reals.

  A layer takes the node features `h` and the aggregated neighbour features `agg` (both M×K), adds them, applies an
  affine map K→N followed by the positive part, then a second affine map N→N followed by the positive part:
  entry `(r, j)` of the result depends on row `r` of `h + agg` only. The read-out is one affine map with no positive
  part. A bias is given as a function of the column alone, so that a bias stored as a vector and a bias stored as
  a one-row matrix are the same argument.
-/
import Idealize.ShloMosaic.PureOps.Ideal
import Idealize.ShloMosaic.Lib.ValueIdx

noncomputable section

open scoped BigOperators

namespace Cert.Gin

open Idealize.ShloMosaic Idealize.ShloMosaic.ValueIdx

variable {M K N : Nat}

/-- Row `r` of `x` against column `j` of `W`, plus the bias at `j`. -/
def affine (x : FVec Ideal ⟨2, ![M, K]⟩ .f32) (W : FVec Ideal ⟨2, ![K, N]⟩ .f32) (b : Fin N → EReal)
    (r : Fin M) (j : Fin N) : EReal :=
  (∑ k : Fin K, x (ix2 r k) * W (ix2 k j)) + b j

/-- One layer: the positive part of an affine map of the positive part of an affine map of `h + agg`. -/
def layer (h agg : FVec Ideal ⟨2, ![M, K]⟩ .f32) (Wa : FVec Ideal ⟨2, ![K, N]⟩ .f32) (ba : Fin N → EReal)
    (Wb : FVec Ideal ⟨2, ![N, N]⟩ .f32) (bb : Fin N → EReal) : FVec Ideal ⟨2, ![M, N]⟩ .f32 :=
  fun i => max (affine (fun p : (⟨2, ![M, N]⟩ : Shape).Idx =>
      max (affine (fun q : (⟨2, ![M, K]⟩ : Shape).Idx => h q + agg q) Wa ba (p 0) (p 1)) 0) Wb bb (i 0) (i 1)) 0

/-- The read-out: one affine map. -/
def readout (x : FVec Ideal ⟨2, ![M, K]⟩ .f32) (W : FVec Ideal ⟨2, ![K, N]⟩ .f32) (b : Fin N → EReal) :
    FVec Ideal ⟨2, ![M, N]⟩ .f32 :=
  fun i => affine x W b (i 0) (i 1)

/-- A layer at the entry `(r, j)`, written out: only row `r` of the two inputs enters. -/
theorem layer_apply (h agg : FVec Ideal ⟨2, ![M, K]⟩ .f32) (Wa : FVec Ideal ⟨2, ![K, N]⟩ .f32) (ba : Fin N → EReal)
    (Wb : FVec Ideal ⟨2, ![N, N]⟩ .f32) (bb : Fin N → EReal) (r : Fin M) (j : Fin N) :
    layer h agg Wa ba Wb bb (ix2 r j)
      = max ((∑ k : Fin N, max ((∑ l : Fin K, (h (ix2 r l) + agg (ix2 r l)) * Wa (ix2 l k)) + ba k) 0 * Wb (ix2 k j)) + bb j) 0 :=
  rfl

/-- The read-out at the entry `(r, j)`. -/
theorem readout_apply (x : FVec Ideal ⟨2, ![M, K]⟩ .f32) (W : FVec Ideal ⟨2, ![K, N]⟩ .f32) (b : Fin N → EReal)
    (r : Fin M) (j : Fin N) :
    readout x W b (ix2 r j) = (∑ k : Fin K, x (ix2 r k) * W (ix2 k j)) + b j :=
  rfl

end Cert.Gin

end
-- ==== Proof.Region0.lean ====
/-
  The first region: what its write-backs leave in the output array.

  The grid has 25 points; point `t` stages rows `4000·t … 4000·t + 3999` of the node features and of their aggregate,
  the two weight matrices and the two bias rows whole, and writes back rows `4000·t … 4000·t + 3999` of the output.
  A layer's entry `(r, j)` depends on row `r` of its two inputs only, so each written block is the block of ONE
  whole-array function — the layer function of the arrays as the region finds them — and the 25 blocks tile the
  100000 rows: after the region the output array is that function.
-/
import proofs.«101256_j48249662603679_1_alg».proof.Proof.Gen.KernelIdeal.Frame
import proofs.«101256_j48249662603679_1_alg».proof.Proof.Pay
import proofs.«101256_j48249662603679_1_alg».proof.Proof.Spec

set_option maxRecDepth 16384

noncomputable section

open scoped BigOperators

namespace Cert.KernelIdeal.Region0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has 25 points. -/
theorem pt_lt (t : Fin cfg0.N) : t.val < 25 := by
  have h := t.isLt
  have e : cfg0.N = 25 := N_0
  omega

/-- The printed index maps, decided once over the grid: the two row-blocked inputs and the output sit at block `t` on the rows, everything else at block zero. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Row `p` of point `t`'s block is row `4000·t + p` of the array. -/
def row (t : Fin cfg0.N) (p : Fin 4000) : Fin 100000 :=
  ⟨t.val * 4000 + p.val, by have := pt_lt t; have := p.isLt; omega⟩

/-- The node-feature block read at `(p, l)` is the array at row `4000·t + p`. -/
theorem read0 (c : Dev nD) (t : Fin cfg0.N) (p : Fin 4000) (l : Fin 14) :
    iblk0 V c 0 t (ix2 p l) = V c main_arg0 (ix2 (row t p) l) := by
  obtain ⟨e0, e1, e2, e3, e4, e5, e6, e7, e8, e9, e10, e11, e12, e13⟩ := idx_facts t
  show V c main_arg0 (((cfg0.win 0).blk t).view.emb (ix2 p l)) = V c main_arg0 (ix2 (row t p) l)
  refine congrArg _ (funext fun a => Fin.ext ?_)
  match a with
  | ⟨0, _⟩ =>
    show win0_0.index t (0 : Fin 2) * 4000 + 1 * p.val = t.val * 4000 + p.val
    rw [e0]; omega
  | ⟨1, _⟩ =>
    show win0_0.index t (1 : Fin 2) * 14 + 1 * l.val = l.val
    rw [e1]; omega

/-- The aggregate block read at `(p, l)` is the array at row `4000·t + p`. -/
theorem read1 (c : Dev nD) (t : Fin cfg0.N) (p : Fin 4000) (l : Fin 14) :
    iblk0 V c 1 t (ix2 p l) = V c main_v13 (ix2 (row t p) l) := by
  obtain ⟨e0, e1, e2, e3, e4, e5, e6, e7, e8, e9, e10, e11, e12, e13⟩ := idx_facts t
  show V c main_v13 (((cfg0.win 1).blk t).view.emb (ix2 p l)) = V c main_v13 (ix2 (row t p) l)
  refine congrArg _ (funext fun a => Fin.ext ?_)
  match a with
  | ⟨0, _⟩ =>
    show win0_1.index t (0 : Fin 2) * 4000 + 1 * p.val = t.val * 4000 + p.val
    rw [e2]; omega
  | ⟨1, _⟩ =>
    show win0_1.index t (1 : Fin 2) * 14 + 1 * l.val = l.val
    rw [e3]; omega

/-- The first weight matrix is staged whole. -/
theorem read2 (c : Dev nD) (t : Fin cfg0.N) (p : Fin 14) (l : Fin 128) :
    iblk0 V c 2 t (ix2 p l) = V c main_arg3 (ix2 p l) := by
  obtain ⟨e0, e1, e2, e3, e4, e5, e6, e7, e8, e9, e10, e11, e12, e13⟩ := idx_facts t
  show V c main_arg3 (((cfg0.win 2).blk t).view.emb (ix2 p l)) = V c main_arg3 (ix2 p l)
  refine congrArg _ (funext fun a => Fin.ext ?_)
  match a with
  | ⟨0, _⟩ =>
    show win0_2.index t (0 : Fin 2) * 14 + 1 * p.val = p.val
    rw [e4]; omega
  | ⟨1, _⟩ =>
    show win0_2.index t (1 : Fin 2) * 128 + 1 * l.val = l.val
    rw [e5]; omega

/-- The first bias row is staged whole. -/
theorem read3 (c : Dev nD) (t : Fin cfg0.N) (p : Fin 1) (l : Fin 128) :
    iblk0 V c 3 t (ix2 p l) = V c main_v14 (ix2 p l) := by
  obtain ⟨e0, e1, e2, e3, e4, e5, e6, e7, e8, e9, e10, e11, e12, e13⟩ := idx_facts t
  show V c main_v14 (((cfg0.win 3).blk t).view.emb (ix2 p l)) = V c main_v14 (ix2 p l)
  refine congrArg _ (funext fun a => Fin.ext ?_)
  match a with
  | ⟨0, _⟩ =>
    show win0_3.index t (0 : Fin 2) * 1 + 1 * p.val = p.val
    rw [e6]; omega
  | ⟨1, _⟩ =>
    show win0_3.index t (1 : Fin 2) * 128 + 1 * l.val = l.val
    rw [e7]; omega

/-- The second weight matrix is staged whole. -/
theorem read4 (c : Dev nD) (t : Fin cfg0.N) (p : Fin 128) (l : Fin 128) :
    iblk0 V c 4 t (ix2 p l) = V c main_arg5 (ix2 p l) := by
  obtain ⟨e0, e1, e2, e3, e4, e5, e6, e7, e8, e9, e10, e11, e12, e13⟩ := idx_facts t
  show V c main_arg5 (((cfg0.win 4).blk t).view.emb (ix2 p l)) = V c main_arg5 (ix2 p l)
  refine congrArg _ (funext fun a => Fin.ext ?_)
  match a with
  | ⟨0, _⟩ =>
    show win0_4.index t (0 : Fin 2) * 128 + 1 * p.val = p.val
    rw [e8]; omega
  | ⟨1, _⟩ =>
    show win0_4.index t (1 : Fin 2) * 128 + 1 * l.val = l.val
    rw [e9]; omega

/-- The second bias row is staged whole. -/
theorem read5 (c : Dev nD) (t : Fin cfg0.N) (p : Fin 1) (l : Fin 128) :
    iblk0 V c 5 t (ix2 p l) = V c main_v15 (ix2 p l) := by
  obtain ⟨e0, e1, e2, e3, e4, e5, e6, e7, e8, e9, e10, e11, e12, e13⟩ := idx_facts t
  show V c main_v15 (((cfg0.win 5).blk t).view.emb (ix2 p l)) = V c main_v15 (ix2 p l)
  refine congrArg _ (funext fun a => Fin.ext ?_)
  match a with
  | ⟨0, _⟩ =>
    show win0_5.index t (0 : Fin 2) * 1 + 1 * p.val = p.val
    rw [e10]; omega
  | ⟨1, _⟩ =>
    show win0_5.index t (1 : Fin 2) * 128 + 1 * l.val = l.val
    rw [e11]; omega

/-- Entry `(p, q)` of point `t`'s output block sits at row `4000·t + p`, column `q` of the output array. -/
theorem emb_out (t : Fin cfg0.N) (p : Fin 4000) (q : Fin 128) :
    ((cfg0.win 6).blk t).view.emb (ix2 p q) = ix2 (row t p) q := by
  obtain ⟨e0, e1, e2, e3, e4, e5, e6, e7, e8, e9, e10, e11, e12, e13⟩ := idx_facts t
  refine funext fun a => Fin.ext ?_
  match a with
  | ⟨0, _⟩ =>
    show win0_6.index t (0 : Fin 2) * 4000 + 1 * p.val = t.val * 4000 + p.val
    rw [e12]; omega
  | ⟨1, _⟩ =>
    show win0_6.index t (1 : Fin 2) * 128 + 1 * q.val = q.val
    rw [e13]; omega

/-- The layer function of the arrays as the region finds them; a bias row enters through its one row. -/
abbrev G (c : Dev nD) : S100000x128.Idx → Elt Ideal .f32 :=
  Cert.Gin.layer (M := 100000) (K := 14) (N := 128) (V c main_arg0) (V c main_v13) (V c main_arg3)
    (fun k => V c main_v14 (ix2 (0 : Fin 1) k)) (V c main_arg5) (fun k => V c main_v15 (ix2 (0 : Fin 1) k))

/-- What point `t` writes back is block `t` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S4000x14) hz, View.ld_unit_zero (S := S14x128) hz, View.ld_unit_zero (S := S1x128) hz, View.ld_unit_zero (S := S128x128) hz]
  funext j
  obtain ⟨p, q, rfl⟩ : ∃ (p : Fin 4000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = G V c (((cfg0.win 6).blk t).view.emb (ix2 p q))
  rw [emb_out t p q]
  refine (pay0_apply _ _ _ _ _ _ p q).trans ?_
  simp only [read0 V c t, read1 V c t, read2 V c t, read3 V c t, read4 V c t, read5 V c t]
  rfl

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v16).slice (win0_6.rect t)).set ↔ _
  rw [View.set_slice_whole, Rect.mem_set_unit]
  exact Iff.rfl

/-- Every index of the output array is in some point's block: row `r` is in block `r / 4000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_6 _, ?_⟩
  rw [mem_blk]
  obtain ⟨e0, e1, e2, e3, e4, e5, e6, e7, e8, e9, e10, e11, e12, e13⟩ := idx_facts ⟨(i 0).val / 4000, by rw [hN]; omega⟩
  intro a
  match a with
  | ⟨0, _⟩ =>
    show win0_6.index _ (0 : Fin 2) * 4000 ≤ (i 0).val ∧ (i 0).val < win0_6.index _ (0 : Fin 2) * 4000 + 4000
    rw [e12]
    show (i 0).val / 4000 * 4000 ≤ (i 0).val ∧ (i 0).val < (i 0).val / 4000 * 4000 + 4000
    omega
  | ⟨1, _⟩ =>
    show win0_6.index _ (1 : Fin 2) * 128 ≤ (i 1).val ∧ (i 1).val < win0_6.index _ (1 : Fin 2) * 128 + 128
    rw [e13]
    omega

/-- The output array after the region: `G` of the arrays as the region finds them. -/
theorem final (c : Dev nD) : (dat0 V c).arrAt 6 cfg0.N = G V c :=
  (dat0 V c).arrAt_eq_of_cover 6 (G V c) (fun t _ => flushed_eq V c t) (fun i => cover i)

end Cert.KernelIdeal.Region0

end
-- ==== Proof.Region1.lean ====
/-
  The second region: what its write-backs leave in the output array.

  The grid has 25 points; point `t` stages rows `4000·t … 4000·t + 3999` of the first layer's output and of its aggregate,
  the two weight matrices and the two bias rows whole, and writes back rows `4000·t … 4000·t + 3999` of the output.
  A layer's entry `(r, j)` depends on row `r` of its two inputs only, so each written block is the block of ONE
  whole-array function — the layer function of the arrays as the region finds them — and the 25 blocks tile the
  100000 rows: after the region the output array is that function.
-/
import proofs.«101256_j48249662603679_1_alg».proof.Proof.Gen.KernelIdeal.Frame
import proofs.«101256_j48249662603679_1_alg».proof.Proof.Pay
import proofs.«101256_j48249662603679_1_alg».proof.Proof.Spec

set_option maxRecDepth 16384

noncomputable section

open scoped BigOperators

namespace Cert.KernelIdeal.Region1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has 25 points. -/
theorem pt_lt (t : Fin cfg1.N) : t.val < 25 := by
  have h := t.isLt
  have e : cfg1.N = 25 := N_1
  omega

/-- The printed index maps, decided once over the grid: the two row-blocked inputs and the output sit at block `t` on the rows, everything else at block zero. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Row `p` of point `t`'s block is row `4000·t + p` of the array. -/
def row (t : Fin cfg1.N) (p : Fin 4000) : Fin 100000 :=
  ⟨t.val * 4000 + p.val, by have := pt_lt t; have := p.isLt; omega⟩

/-- The block of the first layer's output read at `(p, l)` is the array at row `4000·t + p`. -/
theorem read0 (c : Dev nD) (t : Fin cfg1.N) (p : Fin 4000) (l : Fin 128) :
    iblk1 V c 0 t (ix2 p l) = V c main_v16 (ix2 (row t p) l) := by
  obtain ⟨e0, e1, e2, e3, e4, e5, e6, e7, e8, e9, e10, e11, e12, e13⟩ := idx_facts t
  show V c main_v16 (((cfg1.win 0).blk t).view.emb (ix2 p l)) = V c main_v16 (ix2 (row t p) l)
  refine congrArg _ (funext fun a => Fin.ext ?_)
  match a with
  | ⟨0, _⟩ =>
    show win1_0.index t (0 : Fin 2) * 4000 + 1 * p.val = t.val * 4000 + p.val
    rw [e0]; omega
  | ⟨1, _⟩ =>
    show win1_0.index t (1 : Fin 2) * 128 + 1 * l.val = l.val
    rw [e1]; omega

/-- The aggregate block read at `(p, l)` is the array at row `4000·t + p`. -/
theorem read1 (c : Dev nD) (t : Fin cfg1.N) (p : Fin 4000) (l : Fin 128) :
    iblk1 V c 1 t (ix2 p l) = V c main_v26 (ix2 (row t p) l) := by
  obtain ⟨e0, e1, e2, e3, e4, e5, e6, e7, e8, e9, e10, e11, e12, e13⟩ := idx_facts t
  show V c main_v26 (((cfg1.win 1).blk t).view.emb (ix2 p l)) = V c main_v26 (ix2 (row t p) l)
  refine congrArg _ (funext fun a => Fin.ext ?_)
  match a with
  | ⟨0, _⟩ =>
    show win1_1.index t (0 : Fin 2) * 4000 + 1 * p.val = t.val * 4000 + p.val
    rw [e2]; omega
  | ⟨1, _⟩ =>
    show win1_1.index t (1 : Fin 2) * 128 + 1 * l.val = l.val
    rw [e3]; omega

/-- The first weight matrix is staged whole. -/
theorem read2 (c : Dev nD) (t : Fin cfg1.N) (p : Fin 128) (l : Fin 128) :
    iblk1 V c 2 t (ix2 p l) = V c main_arg7 (ix2 p l) := by
  obtain ⟨e0, e1, e2, e3, e4, e5, e6, e7, e8, e9, e10, e11, e12, e13⟩ := idx_facts t
  show V c main_arg7 (((cfg1.win 2).blk t).view.emb (ix2 p l)) = V c main_arg7 (ix2 p l)
  refine congrArg _ (funext fun a => Fin.ext ?_)
  match a with
  | ⟨0, _⟩ =>
    show win1_2.index t (0 : Fin 2) * 128 + 1 * p.val = p.val
    rw [e4]; omega
  | ⟨1, _⟩ =>
    show win1_2.index t (1 : Fin 2) * 128 + 1 * l.val = l.val
    rw [e5]; omega

/-- The first bias row is staged whole. -/
theorem read3 (c : Dev nD) (t : Fin cfg1.N) (p : Fin 1) (l : Fin 128) :
    iblk1 V c 3 t (ix2 p l) = V c main_v27 (ix2 p l) := by
  obtain ⟨e0, e1, e2, e3, e4, e5, e6, e7, e8, e9, e10, e11, e12, e13⟩ := idx_facts t
  show V c main_v27 (((cfg1.win 3).blk t).view.emb (ix2 p l)) = V c main_v27 (ix2 p l)
  refine congrArg _ (funext fun a => Fin.ext ?_)
  match a with
  | ⟨0, _⟩ =>
    show win1_3.index t (0 : Fin 2) * 1 + 1 * p.val = p.val
    rw [e6]; omega
  | ⟨1, _⟩ =>
    show win1_3.index t (1 : Fin 2) * 128 + 1 * l.val = l.val
    rw [e7]; omega

/-- The second weight matrix is staged whole. -/
theorem read4 (c : Dev nD) (t : Fin cfg1.N) (p : Fin 128) (l : Fin 128) :
    iblk1 V c 4 t (ix2 p l) = V c main_arg9 (ix2 p l) := by
  obtain ⟨e0, e1, e2, e3, e4, e5, e6, e7, e8, e9, e10, e11, e12, e13⟩ := idx_facts t
  show V c main_arg9 (((cfg1.win 4).blk t).view.emb (ix2 p l)) = V c main_arg9 (ix2 p l)
  refine congrArg _ (funext fun a => Fin.ext ?_)
  match a with
  | ⟨0, _⟩ =>
    show win1_4.index t (0 : Fin 2) * 128 + 1 * p.val = p.val
    rw [e8]; omega
  | ⟨1, _⟩ =>
    show win1_4.index t (1 : Fin 2) * 128 + 1 * l.val = l.val
    rw [e9]; omega

/-- The second bias row is staged whole. -/
theorem read5 (c : Dev nD) (t : Fin cfg1.N) (p : Fin 1) (l : Fin 128) :
    iblk1 V c 5 t (ix2 p l) = V c main_v28 (ix2 p l) := by
  obtain ⟨e0, e1, e2, e3, e4, e5, e6, e7, e8, e9, e10, e11, e12, e13⟩ := idx_facts t
  show V c main_v28 (((cfg1.win 5).blk t).view.emb (ix2 p l)) = V c main_v28 (ix2 p l)
  refine congrArg _ (funext fun a => Fin.ext ?_)
  match a with
  | ⟨0, _⟩ =>
    show win1_5.index t (0 : Fin 2) * 1 + 1 * p.val = p.val
    rw [e10]; omega
  | ⟨1, _⟩ =>
    show win1_5.index t (1 : Fin 2) * 128 + 1 * l.val = l.val
    rw [e11]; omega

/-- Entry `(p, q)` of point `t`'s output block sits at row `4000·t + p`, column `q` of the output array. -/
theorem emb_out (t : Fin cfg1.N) (p : Fin 4000) (q : Fin 128) :
    ((cfg1.win 6).blk t).view.emb (ix2 p q) = ix2 (row t p) q := by
  obtain ⟨e0, e1, e2, e3, e4, e5, e6, e7, e8, e9, e10, e11, e12, e13⟩ := idx_facts t
  refine funext fun a => Fin.ext ?_
  match a with
  | ⟨0, _⟩ =>
    show win1_6.index t (0 : Fin 2) * 4000 + 1 * p.val = t.val * 4000 + p.val
    rw [e12]; omega
  | ⟨1, _⟩ =>
    show win1_6.index t (1 : Fin 2) * 128 + 1 * q.val = q.val
    rw [e13]; omega

/-- The layer function of the arrays as the region finds them; a bias row enters through its one row. -/
abbrev G (c : Dev nD) : S100000x128.Idx → Elt Ideal .f32 :=
  Cert.Gin.layer (M := 100000) (K := 128) (N := 128) (V c main_v16) (V c main_v26) (V c main_arg7)
    (fun k => V c main_v27 (ix2 (0 : Fin 1) k)) (V c main_arg9) (fun k => V c main_v28 (ix2 (0 : Fin 1) k))

/-- What point `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = G V c (((cfg1.win 6).blk t).view.emb (ix2 p q))
  rw [emb_out t p q]
  refine (pay1_apply _ _ _ _ _ _ p q).trans ?_
  simp only [read0 V c t, read1 V c t, read2 V c t, read3 V c t, read4 V c t, read5 V c t]
  rfl

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v29).slice (win1_6.rect t)).set ↔ _
  rw [View.set_slice_whole, Rect.mem_set_unit]
  exact Iff.rfl

/-- Every index of the output array is in some point's block: row `r` is in block `r / 4000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_6 _, ?_⟩
  rw [mem_blk]
  obtain ⟨e0, e1, e2, e3, e4, e5, e6, e7, e8, e9, e10, e11, e12, e13⟩ := idx_facts ⟨(i 0).val / 4000, by rw [hN]; omega⟩
  intro a
  match a with
  | ⟨0, _⟩ =>
    show win1_6.index _ (0 : Fin 2) * 4000 ≤ (i 0).val ∧ (i 0).val < win1_6.index _ (0 : Fin 2) * 4000 + 4000
    rw [e12]
    show (i 0).val / 4000 * 4000 ≤ (i 0).val ∧ (i 0).val < (i 0).val / 4000 * 4000 + 4000
    omega
  | ⟨1, _⟩ =>
    show win1_6.index _ (1 : Fin 2) * 128 ≤ (i 1).val ∧ (i 1).val < win1_6.index _ (1 : Fin 2) * 128 + 128
    rw [e13]
    omega

/-- The output array after the region: `G` of the arrays as the region finds them. -/
theorem final (c : Dev nD) : (dat1 V c).arrAt 6 cfg1.N = G V c :=
  (dat1 V c).arrAt_eq_of_cover 6 (G V c) (fun t _ => flushed_eq V c t) (fun i => cover i)

end Cert.KernelIdeal.Region1

end
-- ==== Proof.Region2.lean ====
/-
  The third region: what its write-back leaves in the result array.

  The grid has one point: it stages the pooled features (4096×128), the read-out matrix and the read-out bias row
  whole, and writes the whole 4096×128 result back. The stored block is the read-out function of the arrays as the
  region finds them, and the one block is the whole array: after the region the result array is that function.
-/
import proofs.«101256_j48249662603679_1_alg».proof.Proof.Gen.KernelIdeal.Frame
import proofs.«101256_j48249662603679_1_alg».proof.Proof.Pay
import proofs.«101256_j48249662603679_1_alg».proof.Proof.Spec

set_option maxRecDepth 16384

noncomputable section

open scoped BigOperators

namespace Cert.KernelIdeal.Region2

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has 1 point. -/
theorem pt_lt (t : Fin cfg2.N) : t.val < 1 := by
  have h := t.isLt
  have e : cfg2.N = 1 := N_2
  omega

/-- The printed index maps, decided once over the grid: every window sits at block zero on both axes. -/
theorem idx_facts : ∀ t : Fin cfg2.N,
    win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0 :=
  (by decide +kernel : ∀ t : Fin grid2.N, _)

/-- The pooled features are staged whole. -/
theorem read0 (c : Dev nD) (t : Fin cfg2.N) (p : Fin 4096) (l : Fin 128) :
    iblk2 V c 0 t (ix2 p l) = V c main_v41 (ix2 p l) := by
  obtain ⟨e0, e1, e2, e3, e4, e5, e6, e7⟩ := idx_facts t
  show V c main_v41 (((cfg2.win 0).blk t).view.emb (ix2 p l)) = V c main_v41 (ix2 p l)
  refine congrArg _ (funext fun a => Fin.ext ?_)
  match a with
  | ⟨0, _⟩ =>
    show win2_0.index t (0 : Fin 2) * 4096 + 1 * p.val = p.val
    rw [e0]; omega
  | ⟨1, _⟩ =>
    show win2_0.index t (1 : Fin 2) * 128 + 1 * l.val = l.val
    rw [e1]; omega

/-- The read-out matrix is staged whole. -/
theorem read1 (c : Dev nD) (t : Fin cfg2.N) (p : Fin 128) (l : Fin 128) :
    iblk2 V c 1 t (ix2 p l) = V c main_arg11 (ix2 p l) := by
  obtain ⟨e0, e1, e2, e3, e4, e5, e6, e7⟩ := idx_facts t
  show V c main_arg11 (((cfg2.win 1).blk t).view.emb (ix2 p l)) = V c main_arg11 (ix2 p l)
  refine congrArg _ (funext fun a => Fin.ext ?_)
  match a with
  | ⟨0, _⟩ =>
    show win2_1.index t (0 : Fin 2) * 128 + 1 * p.val = p.val
    rw [e2]; omega
  | ⟨1, _⟩ =>
    show win2_1.index t (1 : Fin 2) * 128 + 1 * l.val = l.val
    rw [e3]; omega

/-- The read-out bias row is staged whole. -/
theorem read2 (c : Dev nD) (t : Fin cfg2.N) (p : Fin 1) (l : Fin 128) :
    iblk2 V c 2 t (ix2 p l) = V c main_v42 (ix2 p l) := by
  obtain ⟨e0, e1, e2, e3, e4, e5, e6, e7⟩ := idx_facts t
  show V c main_v42 (((cfg2.win 2).blk t).view.emb (ix2 p l)) = V c main_v42 (ix2 p l)
  refine congrArg _ (funext fun a => Fin.ext ?_)
  match a with
  | ⟨0, _⟩ =>
    show win2_2.index t (0 : Fin 2) * 1 + 1 * p.val = p.val
    rw [e4]; omega
  | ⟨1, _⟩ =>
    show win2_2.index t (1 : Fin 2) * 128 + 1 * l.val = l.val
    rw [e5]; omega

/-- Entry `(p, q)` of the output block sits at row `p`, column `q` of the result array. -/
theorem emb_out (t : Fin cfg2.N) (p : Fin 4096) (q : Fin 128) :
    ((cfg2.win 3).blk t).view.emb (ix2 p q) = ix2 p q := by
  obtain ⟨e0, e1, e2, e3, e4, e5, e6, e7⟩ := idx_facts t
  refine funext fun a => Fin.ext ?_
  match a with
  | ⟨0, _⟩ =>
    show win2_3.index t (0 : Fin 2) * 4096 + 1 * p.val = p.val
    rw [e6]; omega
  | ⟨1, _⟩ =>
    show win2_3.index t (1 : Fin 2) * 128 + 1 * q.val = q.val
    rw [e7]; omega

/-- The read-out function of the arrays as the region finds them; the bias row enters through its one row. -/
abbrev G (c : Dev nD) : S4096x128.Idx → Elt Ideal .f32 :=
  Cert.Gin.readout (M := 4096) (K := 128) (N := 128) (V c main_v41) (V c main_arg11)
    (fun k => V c main_v42 (ix2 (0 : Fin 1) k))

/-- What the one point writes back is the block of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S4096x128) hz, View.ld_unit_zero (S := S128x128) hz, View.ld_unit_zero (S := S1x128) hz]
  funext j
  obtain ⟨p, q, rfl⟩ : ∃ (p : Fin 4096) (q : Fin 128), j = ix2 p q := ⟨j 0, j 1, eq_ix2 j⟩
  show k2_pay1 (iblk2 V c 0 t) (iblk2 V c 1 t) (iblk2 V c 2 t) (ix2 p q)
    = G V c (((cfg2.win 3).blk t).view.emb (ix2 p q))
  rw [emb_out t p q]
  refine (pay2_apply _ _ _ p q).trans ?_
  simp only [read0 V c t, read1 V c t, read2 V c t]
  rfl

/-- An index of the result array is in the point's block iff each coordinate is in the block's range on its axis. -/
theorem mem_blk (t : Fin cfg2.N) (i : S4096x128.Idx) :
    i ∈ ((cfg2.win 3).blk t).view.set ↔ ∀ a : Fin 2, win2_3.index t a * S4096x128.size a ≤ (i a).val
      ∧ (i a).val < win2_3.index t a * S4096x128.size a + S4096x128.size a := by
  show i ∈ ((View.whole main_v43).slice (win2_3.rect t)).set ↔ _
  rw [View.set_slice_whole, Rect.mem_set_unit]
  exact Iff.rfl

/-- Every index of the result array is in the one point's block. -/
theorem cover (i : S4096x128.Idx) :
    ∃ t : Fin cfg2.N, (cfg2.win 3).flush t = true ∧ i ∈ ((cfg2.win 3).blk t).view.set := by
  have hi0 : (i 0).val < 4096 := (i 0).isLt
  have hi1 : (i 1).val < 128 := (i 1).isLt
  have hN : cfg2.N = 1 := N_2
  refine ⟨⟨0, by rw [hN]; omega⟩, flush2_3 _, ?_⟩
  rw [mem_blk]
  obtain ⟨e0, e1, e2, e3, e4, e5, e6, e7⟩ := idx_facts ⟨0, by rw [hN]; omega⟩
  intro a
  match a with
  | ⟨0, _⟩ =>
    show win2_3.index _ (0 : Fin 2) * 4096 ≤ (i 0).val ∧ (i 0).val < win2_3.index _ (0 : Fin 2) * 4096 + 4096
    rw [e6]
    omega
  | ⟨1, _⟩ =>
    show win2_3.index _ (1 : Fin 2) * 128 ≤ (i 1).val ∧ (i 1).val < win2_3.index _ (1 : Fin 2) * 128 + 128
    rw [e7]
    omega

/-- The result array after the region: `G` of the arrays as the region finds them. -/
theorem final (c : Dev nD) : (dat2 V c).arrAt 3 cfg2.N = G V c :=
  (dat2 V c).arrAt_eq_of_cover 3 (G V c) (fun t _ => flushed_eq V c t) (fun i => cover i)

end Cert.KernelIdeal.Region2

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«101256_j48249662603679_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«101256_j48249662603679_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.RefLayers.lean ====
/-
  The reference's three dense stages are the specification's functions.

  In the reference each layer is "add the aggregate, host matrix product, bias, positive part, host matrix product,
  bias, positive part" on whole arrays, and the read-out is "host matrix product, bias". Read entry by entry these are
  the layer and read-out functions of the specification, applied to the same inputs — whatever those inputs are: the
  aggregate (a gather followed by a scatter-add) and the pooled features enter as they stand and are never opened.
  Each proof reads the hidden activation at a free column first, then the output entry over it.
-/
import proofs.«101256_j48249662603679_1_alg».proof.Proof.Gen.ReferenceIdeal.Read
import proofs.«101256_j48249662603679_1_alg».proof.Proof.LibHostAffine
import proofs.«101256_j48249662603679_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LibHostAffine

/-- The first layer's hidden activation at row `r`, column `k`. -/
theorem hidden1 (x0 : (⟨S100000x14, .f32⟩ : BufTy).Contents (Elt Ideal)) (x1 : (⟨S2x1600000, .i32⟩ : BufTy).Contents (Elt Ideal)) (x3 : (⟨S14x128, .f32⟩ : BufTy).Contents (Elt Ideal)) (x4 : (⟨S128, .f32⟩ : BufTy).Contents (Elt Ideal)) (r : Fin 100000) (k : Fin 128) :
    val_main_v19 (F := Ideal) x0 x1 x3 x4 (ix2 r k)
      = max ((∑ l : Fin 14, (x0 (ix2 r l) + val_main_v13 (F := Ideal) x0 x1 (ix2 r l)) * x3 (ix2 l k)) + x4 (ix1 k)) 0 := by
  unfold val_main_v19 val_main_v18 val_main_v15 val_main_v17 val_main_v16 val_main_v14 val_main_call0_v0 val_main_call0_cst
  rw [relu_apply, affine_apply dot_S100000x14_S14x128_S100000x128_1_0_0_1_n_n rfl rfl rfl rfl rfl rfl]
  simp only [addf_apply]

/-- The first layer's output stage is the layer function of the node features, their aggregate and the first four
    parameter arrays. -/
theorem layer1 (x0 : (⟨S100000x14, .f32⟩ : BufTy).Contents (Elt Ideal)) (x1 : (⟨S2x1600000, .i32⟩ : BufTy).Contents (Elt Ideal)) (x3 : (⟨S14x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v24 (F := Ideal) x0 x1 x3 x4 x5 x6
      = Cert.Gin.layer (M := 100000) (K := 14) (N := 128) x0 (val_main_v13 (F := Ideal) x0 x1) x3 (fun k => x4 (ix1 k)) x5
          (fun k => x6 (ix1 k)) := by
  funext i
  obtain ⟨r, j, rfl⟩ : ∃ (r : Fin 100000) (j : Fin 128), i = ix2 r j := ⟨i 0, i 1, eq_ix2 i⟩
  rw [Cert.Gin.layer_apply]
  unfold val_main_v24 val_main_v23 val_main_v20 val_main_v22 val_main_v21 val_main_call1_v0 val_main_call1_cst
  rw [relu_apply, affine_apply dot_S100000x128_S128x128_S100000x128_1_0_0_1_n_n rfl rfl rfl rfl rfl rfl]
  simp only [hidden1]

/-- The second layer's hidden activation at row `r`, column `k`, over the first layer's output and its aggregate. -/
theorem hidden2 (x0 : (⟨S100000x14, .f32⟩ : BufTy).Contents (Elt Ideal)) (x1 : (⟨S2x1600000, .i32⟩ : BufTy).Contents (Elt Ideal)) (x3 : (⟨S14x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (r : Fin 100000) (k : Fin 128) :
    val_main_v40 (F := Ideal) x0 x1 x3 x4 x5 x6 x7 x8 (ix2 r k)
      = max ((∑ l : Fin 128, (val_main_v24 (F := Ideal) x0 x1 x3 x4 x5 x6 (ix2 r l) + val_main_v34 (F := Ideal) x0 x1 x3 x4 x5 x6 (ix2 r l))
          * x7 (ix2 l k)) + x8 (ix1 k)) 0 := by
  unfold val_main_v40 val_main_v39 val_main_v36 val_main_v38 val_main_v37 val_main_v35 val_main_call2_v0 val_main_call2_cst
  rw [relu_apply, affine_apply dot_S100000x128_S128x128_S100000x128_1_0_0_1_n_n rfl rfl rfl rfl rfl rfl]
  simp only [addf_apply]

/-- The second layer's output stage is the layer function of the first layer's output, its aggregate and the next
    four parameter arrays. -/
theorem layer2 (x0 : (⟨S100000x14, .f32⟩ : BufTy).Contents (Elt Ideal)) (x1 : (⟨S2x1600000, .i32⟩ : BufTy).Contents (Elt Ideal)) (x3 : (⟨S14x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v45 (F := Ideal) x0 x1 x3 x4 x5 x6 x7 x8 x9 x10
      = Cert.Gin.layer (M := 100000) (K := 128) (N := 128) (val_main_v24 (F := Ideal) x0 x1 x3 x4 x5 x6)
          (val_main_v34 (F := Ideal) x0 x1 x3 x4 x5 x6) x7 (fun k => x8 (ix1 k)) x9 (fun k => x10 (ix1 k)) := by
  funext i
  obtain ⟨r, j, rfl⟩ : ∃ (r : Fin 100000) (j : Fin 128), i = ix2 r j := ⟨i 0, i 1, eq_ix2 i⟩
  rw [Cert.Gin.layer_apply]
  unfold val_main_v45 val_main_v44 val_main_v41 val_main_v43 val_main_v42 val_main_call3_v0 val_main_call3_cst
  rw [relu_apply, affine_apply dot_S100000x128_S128x128_S100000x128_1_0_0_1_n_n rfl rfl rfl rfl rfl rfl]
  simp only [hidden2]

/-- The result stage is the read-out of the pooled features with the last two parameter arrays. -/
theorem readout (x0 : (⟨S100000x14, .f32⟩ : BufTy).Contents (Elt Ideal)) (x1 : (⟨S2x1600000, .i32⟩ : BufTy).Contents (Elt Ideal)) (x2 : (⟨S100000, .i32⟩ : BufTy).Contents (Elt Ideal)) (x3 : (⟨S14x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v61 (F := Ideal) x0 x1 x2 x3 x4 x5 x6 x7 x8 x9 x10 x11 x12
      = Cert.Gin.readout (M := 4096) (K := 128) (N := 128) (val_main_v57 (F := Ideal) x0 x1 x2 x3 x4 x5 x6 x7 x8 x9 x10) x11
          (fun k => x12 (ix1 k)) := by
  funext i
  obtain ⟨r, j, rfl⟩ : ∃ (r : Fin 4096) (j : Fin 128), i = ix2 r j := ⟨i 0, i 1, eq_ix2 i⟩
  rw [Cert.Gin.readout_apply]
  unfold val_main_v61 val_main_v58 val_main_v60 val_main_v59
  rw [affine_apply dot_S4096x128_S128x128_S4096x128_1_0_0_1_n_n rfl rfl rfl rfl rfl rfl]

end Cert.ReferenceIdeal.RefValue

end
-- ==== Proof.KernelValue.lean ====
/-
  The idealized kernel's result array, as a function of the argument arrays.

  The program is a chain: host operations, the first layer's region, host operations, the second layer's region,
  host operations, the read-out's region. The contents of the buffers at each boundary are walked from the launch
  memory forward. A stretch of host operations computes, buffer by buffer, the same operations the reference applies
  (the slices of the edge list, the index wrap-around, the gather, the scatter-add, the reshapes of the bias vectors,
  the mean pool), so each buffer it writes is the reference's stage of the same name over the contents going in; a
  region leaves in its output array the layer (or read-out) function of the arrays it finds, which is the reference's
  dense stage over the same inputs. An argument array no segment writes is found unchanged at every boundary.
  At the end the result array holds the reference's result stage of the thirteen arguments.
-/
import proofs.«101256_j48249662603679_1_alg».proof.Proof.KernelRun
import proofs.«101256_j48249662603679_1_alg».proof.Proof.Region0
import proofs.«101256_j48249662603679_1_alg».proof.Proof.Region1
import proofs.«101256_j48249662603679_1_alg».proof.Proof.Region2
import proofs.«101256_j48249662603679_1_alg».proof.Proof.RefLayers
import Idealize.ShloMosaic.Lib.StableHlo.Run
import Idealize.ShloMosaic.Lib.ValueLayout

set_option maxRecDepth 16384

noncomputable section

namespace Cert.KernelIdeal.Whole

open Cert.KernelIdeal Cert.KernelIdeal.Gen
open Cert.ReferenceIdeal.Read Cert.ReferenceIdeal.RefValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

-- the contents at a region's exit enter only through their two facts (at the region's own arrays: what the write-backs
-- leave; at every other buffer: what was there at entry), never through their definition
attribute [local irreducible] W2 W4 W6

/-- A bias vector reshaped to one row reads, along that row, as the vector. -/
theorem bias_row (b : (⟨S128, .f32⟩ : BufTy).Contents (Elt Ideal)) :
    (fun k : Fin 128 => shapeCast S1x128 b shapeCasts_S128_S1x128 (ix2 (0 : Fin 1) k)) = fun k => b (ix1 k) :=
  funext fun k => shapeCast_a_1a_apply b shapeCasts_S128_S1x128 0 k

/-! ## After the first stretch of host operations -/

theorem w1_arg0 : W1 m ρ c (Proc.devRef .tc main_arg0) = m ((c.tc : Thread nD τ).loc main_arg0) := by
  show StableHlo.after hostOps0 (W0 m ρ c) (Proc.devRef .tc main_arg0) = _
  after_results_simp
  all_goals rfl
theorem w1_arg2 : W1 m ρ c (Proc.devRef .tc main_arg2) = m ((c.tc : Thread nD τ).loc main_arg2) := by
  show StableHlo.after hostOps0 (W0 m ρ c) (Proc.devRef .tc main_arg2) = _
  after_results_simp
  all_goals rfl
theorem w1_arg3 : W1 m ρ c (Proc.devRef .tc main_arg3) = m ((c.tc : Thread nD τ).loc main_arg3) := by
  show StableHlo.after hostOps0 (W0 m ρ c) (Proc.devRef .tc main_arg3) = _
  after_results_simp
  all_goals rfl
theorem w1_arg5 : W1 m ρ c (Proc.devRef .tc main_arg5) = m ((c.tc : Thread nD τ).loc main_arg5) := by
  show StableHlo.after hostOps0 (W0 m ρ c) (Proc.devRef .tc main_arg5) = _
  after_results_simp
  all_goals rfl
theorem w1_arg7 : W1 m ρ c (Proc.devRef .tc main_arg7) = m ((c.tc : Thread nD τ).loc main_arg7) := by
  show StableHlo.after hostOps0 (W0 m ρ c) (Proc.devRef .tc main_arg7) = _
  after_results_simp
  all_goals rfl
theorem w1_arg8 : W1 m ρ c (Proc.devRef .tc main_arg8) = m ((c.tc : Thread nD τ).loc main_arg8) := by
  show StableHlo.after hostOps0 (W0 m ρ c) (Proc.devRef .tc main_arg8) = _
  after_results_simp
  all_goals rfl
theorem w1_arg9 : W1 m ρ c (Proc.devRef .tc main_arg9) = m ((c.tc : Thread nD τ).loc main_arg9) := by
  show StableHlo.after hostOps0 (W0 m ρ c) (Proc.devRef .tc main_arg9) = _
  after_results_simp
  all_goals rfl
theorem w1_arg10 : W1 m ρ c (Proc.devRef .tc main_arg10) = m ((c.tc : Thread nD τ).loc main_arg10) := by
  show StableHlo.after hostOps0 (W0 m ρ c) (Proc.devRef .tc main_arg10) = _
  after_results_simp
  all_goals rfl
theorem w1_arg11 : W1 m ρ c (Proc.devRef .tc main_arg11) = m ((c.tc : Thread nD τ).loc main_arg11) := by
  show StableHlo.after hostOps0 (W0 m ρ c) (Proc.devRef .tc main_arg11) = _
  after_results_simp
  all_goals rfl
theorem w1_arg12 : W1 m ρ c (Proc.devRef .tc main_arg12) = m ((c.tc : Thread nD τ).loc main_arg12) := by
  show StableHlo.after hostOps0 (W0 m ρ c) (Proc.devRef .tc main_arg12) = _
  after_results_simp
  all_goals rfl

/-- The source and destination node lists, as the reference slices them out of the edge list. -/
theorem w1_v1 : W1 m ρ c (Proc.devRef .tc main_v1) = val_main_v1 (F := Ideal) (m ((c.tc : Thread nD τ).loc main_arg1)) := by
  show StableHlo.after hostOps0 (W0 m ρ c) (Proc.devRef .tc main_v1) = _
  after_results_simp
  all_goals rfl
theorem w1_v3 : W1 m ρ c (Proc.devRef .tc main_v3) = val_main_v3 (F := Ideal) (m ((c.tc : Thread nD τ).loc main_arg1)) := by
  show StableHlo.after hostOps0 (W0 m ρ c) (Proc.devRef .tc main_v3) = _
  after_results_simp
  all_goals rfl

/-- The aggregate of the node features: the reference's gather and scatter-add of the same arrays. -/
theorem s0_v13 : V1 m ρ c main_v13 = val_main_v13 (F := Ideal) (m ((c.tc : Thread nD τ).loc main_arg0)) (m ((c.tc : Thread nD τ).loc main_arg1)) := by
  show StableHlo.after hostOps0 (W0 m ρ c) (Proc.devRef .tc main_v13) = _
  after_results_simp
  all_goals rfl
theorem s0_v14 : V1 m ρ c main_v14 = shapeCast S1x128 (m ((c.tc : Thread nD τ).loc main_arg4)) shapeCasts_S128_S1x128 := by
  show StableHlo.after hostOps0 (W0 m ρ c) (Proc.devRef .tc main_v14) = _
  after_results_simp
  all_goals rfl
theorem s0_v15 : V1 m ρ c main_v15 = shapeCast S1x128 (m ((c.tc : Thread nD τ).loc main_arg6)) shapeCasts_S128_S1x128 := by
  show StableHlo.after hostOps0 (W0 m ρ c) (Proc.devRef .tc main_v15) = _
  after_results_simp
  all_goals rfl

/-! ## After the first region -/

/-- The first region's output array is the reference's first layer. -/
theorem r0_v16 : W2 m ρ c (Proc.devRef .tc main_v16) = val_main_v24 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W2_arr m ρ c 6).trans ?_
  rw [Region0.final (V1 m ρ) c]
  show Cert.Gin.layer (M := 100000) (K := 14) (N := 128) (V1 m ρ c main_arg0) (V1 m ρ c main_v13) (V1 m ρ c main_arg3)
    (fun k => V1 m ρ c main_v14 (ix2 (0 : Fin 1) k)) (V1 m ρ c main_arg5) (fun k => V1 m ρ c main_v15 (ix2 (0 : Fin 1) k)) = _
  rw [show V1 m ρ c main_arg0 = _ from w1_arg0 m ρ c, s0_v13 m ρ c, show V1 m ρ c main_arg3 = _ from w1_arg3 m ρ c,
    s0_v14 m ρ c, show V1 m ρ c main_arg5 = _ from w1_arg5 m ρ c, s0_v15 m ρ c, bias_row, bias_row]
  exact (layer1 _ _ _ _ _ _).symm

theorem w2_arg2 : W2 m ρ c (Proc.devRef .tc main_arg2) = m ((c.tc : Thread nD τ).loc main_arg2) :=
  (W2_of_ne m ρ c main_arg2 (by decide)).trans (w1_arg2 m ρ c)
theorem w2_arg7 : W2 m ρ c (Proc.devRef .tc main_arg7) = m ((c.tc : Thread nD τ).loc main_arg7) :=
  (W2_of_ne m ρ c main_arg7 (by decide)).trans (w1_arg7 m ρ c)
theorem w2_arg8 : W2 m ρ c (Proc.devRef .tc main_arg8) = m ((c.tc : Thread nD τ).loc main_arg8) :=
  (W2_of_ne m ρ c main_arg8 (by decide)).trans (w1_arg8 m ρ c)
theorem w2_arg9 : W2 m ρ c (Proc.devRef .tc main_arg9) = m ((c.tc : Thread nD τ).loc main_arg9) :=
  (W2_of_ne m ρ c main_arg9 (by decide)).trans (w1_arg9 m ρ c)
theorem w2_arg10 : W2 m ρ c (Proc.devRef .tc main_arg10) = m ((c.tc : Thread nD τ).loc main_arg10) :=
  (W2_of_ne m ρ c main_arg10 (by decide)).trans (w1_arg10 m ρ c)
theorem w2_arg11 : W2 m ρ c (Proc.devRef .tc main_arg11) = m ((c.tc : Thread nD τ).loc main_arg11) :=
  (W2_of_ne m ρ c main_arg11 (by decide)).trans (w1_arg11 m ρ c)
theorem w2_arg12 : W2 m ρ c (Proc.devRef .tc main_arg12) = m ((c.tc : Thread nD τ).loc main_arg12) :=
  (W2_of_ne m ρ c main_arg12 (by decide)).trans (w1_arg12 m ρ c)
theorem w2_v1 : W2 m ρ c (Proc.devRef .tc main_v1) = val_main_v1 (F := Ideal) (m ((c.tc : Thread nD τ).loc main_arg1)) :=
  (W2_of_ne m ρ c main_v1 (by decide)).trans (w1_v1 m ρ c)
theorem w2_v3 : W2 m ρ c (Proc.devRef .tc main_v3) = val_main_v3 (F := Ideal) (m ((c.tc : Thread nD τ).loc main_arg1)) :=
  (W2_of_ne m ρ c main_v3 (by decide)).trans (w1_v3 m ρ c)

/-! ## After the second stretch of host operations -/

theorem w3_arg2 : W3 m ρ c (Proc.devRef .tc main_arg2) = m ((c.tc : Thread nD τ).loc main_arg2) := by
  show StableHlo.after hostOps1 (W2 m ρ c) (Proc.devRef .tc main_arg2) = _
  after_results_simp
  exact w2_arg2 m ρ c
theorem w3_arg7 : W3 m ρ c (Proc.devRef .tc main_arg7) = m ((c.tc : Thread nD τ).loc main_arg7) := by
  show StableHlo.after hostOps1 (W2 m ρ c) (Proc.devRef .tc main_arg7) = _
  after_results_simp
  exact w2_arg7 m ρ c
theorem w3_arg9 : W3 m ρ c (Proc.devRef .tc main_arg9) = m ((c.tc : Thread nD τ).loc main_arg9) := by
  show StableHlo.after hostOps1 (W2 m ρ c) (Proc.devRef .tc main_arg9) = _
  after_results_simp
  exact w2_arg9 m ρ c
theorem w3_arg11 : W3 m ρ c (Proc.devRef .tc main_arg11) = m ((c.tc : Thread nD τ).loc main_arg11) := by
  show StableHlo.after hostOps1 (W2 m ρ c) (Proc.devRef .tc main_arg11) = _
  after_results_simp
  exact w2_arg11 m ρ c
theorem w3_arg12 : W3 m ρ c (Proc.devRef .tc main_arg12) = m ((c.tc : Thread nD τ).loc main_arg12) := by
  show StableHlo.after hostOps1 (W2 m ρ c) (Proc.devRef .tc main_arg12) = _
  after_results_simp
  exact w2_arg12 m ρ c

theorem s1_v16 : V3 m ρ c main_v16 = val_main_v24 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W2 m ρ c) (Proc.devRef .tc main_v16) = _
  after_results_simp
  exact r0_v16 m ρ c

/-- The aggregate of the first layer's output: the reference's gather and scatter-add of the same arrays. -/
theorem s1_v26 : V3 m ρ c main_v26 = val_main_v34 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W2 m ρ c) (Proc.devRef .tc main_v26) = _
  after_results_simp
  rw [r0_v16 m ρ c, w2_v1 m ρ c, w2_v3 m ρ c]
  rfl
theorem s1_v27 : V3 m ρ c main_v27 = shapeCast S1x128 (m ((c.tc : Thread nD τ).loc main_arg8)) shapeCasts_S128_S1x128 := by
  show StableHlo.after hostOps1 (W2 m ρ c) (Proc.devRef .tc main_v27) = _
  after_results_simp
  rw [w2_arg8 m ρ c]
  rfl
theorem s1_v28 : V3 m ρ c main_v28 = shapeCast S1x128 (m ((c.tc : Thread nD τ).loc main_arg10)) shapeCasts_S128_S1x128 := by
  show StableHlo.after hostOps1 (W2 m ρ c) (Proc.devRef .tc main_v28) = _
  after_results_simp
  rw [w2_arg10 m ρ c]
  rfl

/-! ## After the second region -/

/-- The second region's output array is the reference's second layer. -/
theorem r1_v29 : W4 m ρ c (Proc.devRef .tc main_v29) = val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 6).trans ?_
  rw [Region1.final (V3 m ρ) c]
  show Cert.Gin.layer (M := 100000) (K := 128) (N := 128) (V3 m ρ c main_v16) (V3 m ρ c main_v26) (V3 m ρ c main_arg7)
    (fun k => V3 m ρ c main_v27 (ix2 (0 : Fin 1) k)) (V3 m ρ c main_arg9) (fun k => V3 m ρ c main_v28 (ix2 (0 : Fin 1) k)) = _
  rw [s1_v16 m ρ c, s1_v26 m ρ c, show V3 m ρ c main_arg7 = _ from w3_arg7 m ρ c, s1_v27 m ρ c,
    show V3 m ρ c main_arg9 = _ from w3_arg9 m ρ c, s1_v28 m ρ c, bias_row, bias_row]
  exact (layer2 _ _ _ _ _ _ _ _ _ _).symm

theorem w4_arg2 : W4 m ρ c (Proc.devRef .tc main_arg2) = m ((c.tc : Thread nD τ).loc main_arg2) :=
  (W4_of_ne m ρ c main_arg2 (by decide)).trans (w3_arg2 m ρ c)
theorem w4_arg11 : W4 m ρ c (Proc.devRef .tc main_arg11) = m ((c.tc : Thread nD τ).loc main_arg11) :=
  (W4_of_ne m ρ c main_arg11 (by decide)).trans (w3_arg11 m ρ c)
theorem w4_arg12 : W4 m ρ c (Proc.devRef .tc main_arg12) = m ((c.tc : Thread nD τ).loc main_arg12) :=
  (W4_of_ne m ρ c main_arg12 (by decide)).trans (w3_arg12 m ρ c)

/-! ## After the third stretch of host operations -/

theorem w5_arg11 : W5 m ρ c (Proc.devRef .tc main_arg11) = m ((c.tc : Thread nD τ).loc main_arg11) := by
  show StableHlo.after hostOps2 (W4 m ρ c) (Proc.devRef .tc main_arg11) = _
  after_results_simp
  exact w4_arg11 m ρ c

/-- The pooled features: the reference's mean pool of the same array over the same graph assignment. -/
theorem s2_v41 : V5 m ρ c main_v41 = val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps2 (W4 m ρ c) (Proc.devRef .tc main_v41) = _
  after_results_simp
  rw [r1_v29 m ρ c, w4_arg2 m ρ c]
  rfl
theorem s2_v42 : V5 m ρ c main_v42 = shapeCast S1x128 (m ((c.tc : Thread nD τ).loc main_arg12)) shapeCasts_S128_S1x128 := by
  show StableHlo.after hostOps2 (W4 m ρ c) (Proc.devRef .tc main_v42) = _
  after_results_simp
  rw [w4_arg12 m ρ c]
  rfl

/-! ## After the third region -/

/-- The result array is the reference's result stage of the thirteen arguments. -/
theorem result : W6 m ρ c (Proc.devRef .tc main_v43) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W6_arr m ρ c 3).trans ?_
  rw [Region2.final (V5 m ρ) c]
  show Cert.Gin.readout (M := 4096) (K := 128) (N := 128) (V5 m ρ c main_v41) (V5 m ρ c main_arg11)
    (fun k => V5 m ρ c main_v42 (ix2 (0 : Fin 1) k)) = _
  rw [s2_v41 m ρ c, show V5 m ρ c main_arg11 = _ from w5_arg11 m ρ c, s2_v42 m ρ c, bias_row]
  exact (readout _ _ _ _ _ _ _ _ _ _ _ _ _).symm

end Cert.KernelIdeal.Whole

end
-- ==== Proof.lean ====
/-
  A two-layer graph network with a mean-pool read-out: the blocked kernel against the whole-array reference, on the
  extended reals.

  Both programs compute, for node features `x` (100000×14), an edge list, a graph assignment and five weight/bias
  pairs:  `h₁ = relu(relu((x + A x)·W1a + b1a)·W1b + b1b)`,  `h₂ = relu(relu((h₁ + A h₁)·W2a + b2a)·W2b + b2b)`,
  `out = (P h₂)·Wout + bout`, where `A` sums each node's in-neighbours (a gather along the source list followed by a
  scatter-add along the destination list) and `P` is the per-graph mean (a scatter-add of the rows and of ones along
  the graph assignment, the quotient by the count floored at one). The aggregation `A` and the pool `P` are the SAME host
  operations in both programs and are never opened: what is proved is that the values going into them agree. The three
  dense stages differ in form only — the kernel applies each to blocks of 4000 rows (the read-out to the one block of
  4096 rows) with the matrix products into a zero accumulator, after changes of float format that are the identity on
  the extended reals, and the bias as a one-row matrix broadcast over the rows; the reference applies it to the whole
  array with host matrix products and the bias vector broadcast. Entry `(r, j)` of a dense stage depends on row `r` of
  its input only, through the sums `∑ₖ (∑ₗ u(r,l)·Wa(l,k) + ba(k))⁺ · Wb(k,j) + bb(j)`, which both forms spell out
  identically; the blocks tile the rows. No law of arithmetic beyond that is used, so the finiteness of the inputs
  is never needed.

  The pieces: the specification of a layer and of the read-out (Proof/Spec.lean); each kernel body's stored block at an
  entry (Proof/Pay.lean); per region, the blocks assembled into the whole output array (Proof/Region0.lean,
  Region1.lean, Region2.lean); the kernel's run with its result named (Proof/KernelRun.lean) and the result walked back
  through the chain of host operations and regions to the arguments (Proof/KernelValue.lean); the reference's dense
  stages as the same specification (Proof/RefLayers.lean). The idealization rewrote nothing, so it preserves the
  kernel trivially.
-/
import proofs.«101256_j48249662603679_1_alg».proof.Defs
import proofs.«101256_j48249662603679_1_alg».proof.Proof.Gen.Kernel
import proofs.«101256_j48249662603679_1_alg».proof.Proof.Gen.Kernel.Skeleton
import proofs.«101256_j48249662603679_1_alg».proof.Proof.Gen.Kernel.Launch
import proofs.«101256_j48249662603679_1_alg».proof.Proof.Gen.Kernel.Points
import proofs.«101256_j48249662603679_1_alg».proof.Proof.Gen.Kernel.Frame
import proofs.«101256_j48249662603679_1_alg».proof.Proof.Gen.KernelIdeal
import proofs.«101256_j48249662603679_1_alg».proof.Proof.Gen.KernelIdeal.Skeleton
import proofs.«101256_j48249662603679_1_alg».proof.Proof.Gen.KernelIdeal.Launch
import proofs.«101256_j48249662603679_1_alg».proof.Proof.Gen.KernelIdeal.Points
import proofs.«101256_j48249662603679_1_alg».proof.Proof.Gen.KernelIdeal.Frame
import proofs.«101256_j48249662603679_1_alg».proof.Proof.Gen.ReferenceIdeal
import proofs.«101256_j48249662603679_1_alg».proof.Proof.Gen.ReferenceIdeal.Run
import proofs.«101256_j48249662603679_1_alg».proof.Proof.Gen.ReferenceIdeal.Read
import proofs.«101256_j48249662603679_1_alg».proof.Proof.Gen.Pre_finite_inputs
import proofs.«101256_j48249662603679_1_alg».proof.Proof.KernelRun
import proofs.«101256_j48249662603679_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the thirteen arguments both idealized programs end with the same result array: the
    reference's result stage of the arguments. The kernel's result array is that stage by the walk through its chain;
    the reference's is that stage of ITS arguments, which are the kernel's. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Whole.result m ρ c), (h c).2⟩)
    (Cert.KernelIdeal.Whole.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v61_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
